-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S4096x32 : Shape := ⟨2, ![4096, 32]⟩
abbrev S4096 : Shape := ⟨1, ![4096]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32768x1024 .f32) (main_arg1 : FVec F S4096x32 .f32) (main_arg2 : FVec F S4096 .f32) (main_arg3 : IVec S4096x32 32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S32768x1024 : Shape := ⟨2, ![32768, 1024]⟩
abbrev S4096x32 : Shape := ⟨2, ![4096, 32]⟩
abbrev S4096 : Shape := ⟨1, ![4096]⟩
abbrev S4096x1 : Shape := ⟨2, ![4096, 1]⟩
abbrev S_ : Shape := ⟨0, ![]⟩
abbrev S1024x4096 : Shape := ⟨2, ![1024, 4096]⟩
abbrev S131072 : Shape := ⟨1, ![131072]⟩
abbrev S131072x1 : Shape := ⟨2, ![131072, 1]⟩
abbrev S131072x2 : Shape := ⟨2, ![131072, 2]⟩
abbrev S1x4096 : Shape := ⟨2, ![1, 4096]⟩
abbrev S32768x4096 : Shape := ⟨2, ![32768, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 32
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S4096x32, .f32⟩
  | .hbm, ⟨2, _⟩ => ⟨S4096, .f32⟩
  | .hbm, ⟨3, _⟩ => ⟨S4096x32, .i32⟩
  | .hbm, ⟨4, _⟩ => ⟨S4096, .i32⟩
  | .hbm, ⟨5, _⟩ => ⟨S4096x1, .i32⟩
  | .hbm, ⟨6, _⟩ => ⟨S4096x32, .i32⟩
  | .hbm, ⟨7, _⟩ => ⟨S_, .f32⟩
  | .hbm, ⟨8, _⟩ => ⟨S1024x4096, .f32⟩
  | .hbm, ⟨9, _⟩ => ⟨S131072, .i32⟩
  | .hbm, ⟨10, _⟩ => ⟨S131072, .i32⟩
  | .hbm, ⟨11, _⟩ => ⟨S131072, .f32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x1, .i32⟩
  | .hbm, ⟨28, _⟩ => ⟨S131072x2, .i32⟩
  | .hbm, ⟨29, _⟩ => ⟨S1024x4096, .f32⟩
  | .hbm, ⟨30, _⟩ => ⟨S1x4096, .f32⟩
  | .hbm, ⟨31, _⟩ => ⟨S32768x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  bcast_S_S1024x4096 : S_.BroadcastsInDim S1024x4096 (![] : Fin 0 → Fin S1024x4096.rank)
  shapeCasts_S4096x32_S131072 : S4096x32.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  scatter_S1024x4096_S131072x2_S131072_n_01_01_1_wf : ScatterDims.WF S1024x4096 S131072x2 S131072 [] [0, 1] [0, 1] 1
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .f32 = 32 ∨ (Rect.block (s := S1024x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x4096.size a
  hwx0_3 : ∀ i : grid0.Coords, EltTy.bits .f32 = 32 ∨ (Rect.block (s := S32768x4096) S512x1024.size (cc0_transform_3 i) (hinb0_3 i)).WholeWords (EltTy.packing .f32)

variable [Facts₀]

def scatter_S1024x4096_S131072x2_S131072_n_01_01_1 : ScatterDims S1024x4096 S131072x2 S131072 where
  updateWindowDims := []
  insertedWindowDims := [0, 1]
  scatterDimsToOperandDims := [0, 1]
  indexVectorDim := 1
  wf := scatter_S1024x4096_S131072x2_S131072_n_01_01_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S4096x32 : Shape := ⟨2, ![4096, 32]⟩
abbrev S4096 : Shape := ⟨1, ![4096]⟩
abbrev S4096x1 : Shape := ⟨2, ![4096, 1]⟩
abbrev S_ : Shape := ⟨0, ![]⟩
abbrev S1024x4096 : Shape := ⟨2, ![1024, 4096]⟩
abbrev S131072 : Shape := ⟨1, ![131072]⟩
abbrev S131072x1 : Shape := ⟨2, ![131072, 1]⟩
abbrev S131072x2 : Shape := ⟨2, ![131072, 2]⟩
abbrev S32768x4096 : Shape := ⟨2, ![32768, 4096]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4096x32, .f32⟩
  | .hbm, ⟨2, _⟩ => ⟨S4096, .f32⟩
  | .hbm, ⟨3, _⟩ => ⟨S4096x32, .i32⟩
  | .hbm, ⟨4, _⟩ => ⟨S4096, .i32⟩
  | .hbm, ⟨5, _⟩ => ⟨S4096x1, .i32⟩
  | .hbm, ⟨6, _⟩ => ⟨S4096x32, .i32⟩
  | .hbm, ⟨7, _⟩ => ⟨S_, .f32⟩
  | .hbm, ⟨8, _⟩ => ⟨S1024x4096, .f32⟩
  | .hbm, ⟨9, _⟩ => ⟨S131072, .i32⟩
  | .hbm, ⟨10, _⟩ => ⟨S131072, .i32⟩
  | .hbm, ⟨11, _⟩ => ⟨S131072, .f32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x1, .i32⟩
  | .hbm, ⟨28, _⟩ => ⟨S131072x2, .i32⟩
  | .hbm, ⟨29, _⟩ => ⟨S1024x4096, .f32⟩
  | .hbm, ⟨30, _⟩ => ⟨S32768x4096, .f32⟩
  | .hbm, ⟨31, _⟩ => ⟨S1x4096, .f32⟩
  | .hbm, ⟨32, _⟩ => ⟨S32768x4096, .f32⟩
  | .hbm, ⟨33, _⟩ => ⟨S32768x4096, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  bcast_S_S1024x4096 : S_.BroadcastsInDim S1024x4096 (![] : Fin 0 → Fin S1024x4096.rank)
  shapeCasts_S4096x32_S131072 : S4096x32.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  scatter_S1024x4096_S131072x2_S131072_n_01_01_1_wf : ScatterDims.WF S1024x4096 S131072x2 S131072 [] [0, 1] [0, 1] 1
  dot_S32768x1024_S1024x4096_S32768x4096_1_0_0_1_n_n_wf : DotDims.WF S32768x1024 S1024x4096 S32768x4096 [1] [0] [0] [1] [] []

variable [Facts₀]

def scatter_S1024x4096_S131072x2_S131072_n_01_01_1 : ScatterDims S1024x4096 S131072x2 S131072 where
  updateWindowDims := []
  insertedWindowDims := [0, 1]
  scatterDimsToOperandDims := [0, 1]
  indexVectorDim := 1
  wf := scatter_S1024x4096_S131072x2_S131072_n_01_01_1_wf
def dot_S32768x1024_S1024x4096_S32768x4096_1_0_0_1_n_n : DotDims S32768x1024 S1024x4096 S32768x4096 where
  lhsContracting := [1]
  rhsContracting := [0]
  lhsNonContracting := [0]
  rhsNonContracting := [1]
  lhsBatch := []
  rhsBatch := []
  wf := dot_S32768x1024_S1024x4096_S32768x4096_1_0_0_1_n_n_wf

class Facts : Prop extends Facts₀ where

variable [Facts]
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.BlockPayload.lean ====
/-
  One grid point's arithmetic at an entry. The body multiplies its [512, 1024] block of x by its [1024, 1024] block of
  the weights on the matrix unit — both converted to a narrower float format on the way in, which changes nothing on the
  extended reals — into a zero accumulator, and adds its [1, 1024] block of the bias row stretched down the 512 rows. So
  entry (p, q) of what it stores is the sum over k of xblock (p, k) · wblock (k, q), plus biasblock (0, q).
-/
import proofs.«157395_j58634893525466_1_alg».proof.Proof.Gen.KernelIdeal.Skeleton
import proofs.«157395_j58634893525466_1_alg».proof.Proof.LibMatDot
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx Cert.Lib
open scoped BigOperators

/-- The stored block at (p, q): row p of the x block against column q of the weights block, plus the bias block's
    entry of column q. -/
theorem payload_apply (v0 : Vec Ideal S512x1024 .f32) (v2 : Vec Ideal S1024x1024 .f32) (v6 : Vec Ideal S1x1024 .f32)
    (p : Fin 512) (q : Fin 1024) :
    k0_pay1 (F := Ideal) v0 v2 v6 (ix2 p q)
      = (∑ k : Fin 1024, v0 (ix2 p k) * v2 (ix2 k q)) + v6 (ix2 (0 : Fin 1) q) := by
  unfold k0_pay1
  rw [shapeCast_self, shapeCast_self]
  show FloatOps.matmul (F := Ideal) (matDot Facts₀.dot_S512x1024_S1024x1024_S512x1024_1_0_0_1_n_n_wf) none
        (truncf (F := Ideal) .bf16 v0 bitsLt_bf16_f32) (truncf (F := Ideal) .bf16 v2 bitsLt_bf16_f32)
        (constant (F := Ideal) ⟨2, ![512, 1024]⟩ .f32 0x00000000#32) (ix2 p q)
      + broadcastTo ⟨2, ![512, 1024]⟩ v6 broadcasts_S1x1024_S512x1024 (ix2 p q) = _
  rw [matmul_plain_zero_apply, broadcastTo_1b_ab_apply]
  rfl

end Cert.KernelIdeal.Block

end
-- ==== Proof.RegionEntry.lean ====
/-
  What the region finds in the two arrays the host operations wrote before it.

  The weights (the array window 1 stages): a [1024, 4096] array of zeros into which entry e of the flattened sparse values
  is written at row rows[e] (wrapped once by 1024 when negative) and column (the unit number of e, wrapped by 4096 when
  negative) — the host's scatter, kept here as ONE closed term `weights` of the two arguments it depends on. The bias row
  (the array window 2 stages): the bias reshaped [4096] → [1, 4096], so entry (0, c) of it is bias c.
-/
import proofs.«157395_j58634893525466_1_alg».proof.Proof.Gen.KernelIdeal.Frame
import Idealize.ShloMosaic.Lib.ValueLayout
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]

/-- The dense weights as the host operations build them from the sparse values `x1` and their row numbers `x3`. -/
def weights (x1 : (⟨S4096x32, .f32⟩ : BufTy).Contents (Elt F)) (x3 : (⟨S4096x32, .i32⟩ : BufTy).Contents (Elt F)) :
    (⟨S1024x4096, .f32⟩ : BufTy).Contents (Elt F) :=
  Host.scatter scatter_S1024x4096_S131072x2_S131072_n_01_01_1 (fun _ b => b) (broadcastInDim S1024x4096 ![] bcast_S_S1024x4096 (constant S_ .f32 0x00000000#32)) (concatenate S131072x2 1 [⟨S131072x1, (broadcastInDim S131072x1 ![0] bcast_S131072_S131072x1_0 (select (cmpi .slt (shapeCast _ (x3) shapeCasts_S4096x32_S131072) (broadcastInDim S131072 ![] bcast_S_S131072 (constantI S_ 32 0#32))) (addi (shapeCast _ (x3) shapeCasts_S4096x32_S131072) (broadcastInDim S131072 ![] bcast_S_S131072 (constantI S_ 32 1024#32))) (shapeCast _ (x3) shapeCasts_S4096x32_S131072)))⟩, ⟨S131072x1, (broadcastInDim S131072x1 ![0] bcast_S131072_S131072x1_0 (select (cmpi .slt (shapeCast _ (broadcastInDim S4096x32 ![0, 1] bcast_S4096x1_S4096x32_0_1 (broadcastInDim S4096x1 ![0] bcast_S4096_S4096x1_0 (iotaInDim S4096 32 0))) shapeCasts_S4096x32_S131072) (broadcastInDim S131072 ![] bcast_S_S131072 (constantI S_ 32 0#32))) (addi (shapeCast _ (broadcastInDim S4096x32 ![0, 1] bcast_S4096x1_S4096x32_0_1 (broadcastInDim S4096x1 ![0] bcast_S4096_S4096x1_0 (iotaInDim S4096 32 0))) shapeCasts_S4096x32_S131072) (broadcastInDim S131072 ![] bcast_S_S131072 (constantI S_ 32 4096#32))) (shapeCast _ (broadcastInDim S4096x32 ![0, 1] bcast_S4096x1_S4096x32_0_1 (broadcastInDim S4096x1 ![0] bcast_S4096_S4096x1_0 (iotaInDim S4096 32 0))) shapeCasts_S4096x32_S131072)))⟩] concatenates_S131072x1_S131072x1_S131072x2_d1) (shapeCast _ (x1) shapeCasts_S4096x32_S131072)

variable (m : (ℓ : Loc nD τ sig) → Buf (Elt F) ℓ)

set_option maxHeartbeats 2000000 in
/-- The array window 1 stages holds the weights of the launch contents of the sparse values and their row numbers. -/
theorem entry_weights (c : Dev nD) :
    (V m c main_v20 : (⟨S1024x4096, .f32⟩ : BufTy).Contents (Elt F))
      = weights (m ((c.tc : Thread nD τ).loc main_arg1)) (m ((c.tc : Thread nD τ).loc main_arg3)) := by
  dsimp only [V, hostOps0]
  after_results
  rfl

set_option maxHeartbeats 2000000 in
/-- The array window 2 stages holds the bias reshaped to one row. -/
theorem entry_biasRow (c : Dev nD) :
    (V m c main_v21 : (⟨S1x4096, .f32⟩ : BufTy).Contents (Elt F))
      = shapeCast S1x4096 (m ((c.tc : Thread nD τ).loc main_arg2)) shapeCasts_S4096_S1x4096 := by
  dsimp only [V, hostOps0]
  after_results
  rfl

/-- Entry (0, q) of that row is the bias of column q. -/
theorem entry_biasRow_apply (c : Dev nD) (u : Fin 1) (q : Fin 4096) :
    (V m c main_v21 : (⟨S1x4096, .f32⟩ : BufTy).Contents (Elt F)) (ix2 u q)
      = (m ((c.tc : Thread nD τ).loc main_arg2) : (⟨S4096, .f32⟩ : BufTy).Contents (Elt F)) (ix1 q) := by
  rw [entry_biasRow]
  exact shapeCast_a_1a_apply _ _ u q

end Cert.KernelIdeal.Entry

end
-- ==== Proof.Dense.lean ====
/-
  The dense layer both programs compute, as one function of three arrays, entry by entry, on the extended reals:

      dense x W b (r, c) = (the sum over k of x (r, k) · W (k, c)) + b c

  over x : [32768, 1024], W : [1024, 4096], b : [4096]. Row r of x against column c of W, plus the bias of column c.
  The weights W are whatever matrix both programs build from the sparse description by the same host operations; this
  file does not look inside it.
-/
import Idealize.ShloMosaic.PureOps.Ideal.Laws
import Idealize.ShloMosaic.Lib.ValueIdx

noncomputable section

namespace Cert.Dense

open Idealize.ShloMosaic Idealize.ShloMosaic.ValueIdx
open scoped BigOperators

/-- x · W + b, entry by entry. -/
def dense (x : (⟨2, ![32768, 1024]⟩ : Shape).Idx → EReal) (W : (⟨2, ![1024, 4096]⟩ : Shape).Idx → EReal)
    (b : (⟨1, ![4096]⟩ : Shape).Idx → EReal) : (⟨2, ![32768, 4096]⟩ : Shape).Idx → EReal :=
  fun i => (∑ k : Fin 1024, x (ix2 (i 0) k) * W (ix2 k (i 1))) + b (ix1 (i 1))

theorem dense_apply (x : (⟨2, ![32768, 1024]⟩ : Shape).Idx → EReal) (W : (⟨2, ![1024, 4096]⟩ : Shape).Idx → EReal)
    (b : (⟨1, ![4096]⟩ : Shape).Idx → EReal) (r : Fin 32768) (c : Fin 4096) :
    dense x W b (ix2 r c) = (∑ k : Fin 1024, x (ix2 r k) * W (ix2 k c)) + b (ix1 c) := rfl

end Cert.Dense

end
-- ==== Proof.WholeArray.lean ====
/-
  From blocks to the whole result.

  The grid has 64 × 4 points. Point (i, j) reads rows 512·i … 512·i + 511 of x (all 1024 columns), columns
  1024·j … 1024·j + 1023 of the weights (all 1024 rows) and of the bias row, and writes the [512, 1024] block of the result at
  block position (i, j). Entry (p, q) of what it writes is row 512·i + p of x against column 1024·j + q of the weights plus the
  bias of that column (the block's arithmetic at an entry) — block (i, j) of the dense layer of the whole arrays. The 256
  blocks tile the [32768, 4096] result: entry (r, c) lies in the block of point (r / 512, c / 1024). So after the run the
  result array is the dense layer of the arguments.
-/
import proofs.«157395_j58634893525466_1_alg».proof.Proof.Gen.KernelIdeal.Value
import proofs.«157395_j58634893525466_1_alg».proof.Proof.BlockPayload
import proofs.«157395_j58634893525466_1_alg».proof.Proof.RegionEntry
import proofs.«157395_j58634893525466_1_alg».proof.Proof.Dense

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.KernelIdeal.Block Cert.KernelIdeal.Entry
open scoped BigOperators

variable (m : (ℓ : Loc nD τ sig) → Buf (Elt Ideal) ℓ) (ρ : Dev nD → PrngReg)

theorem zero_offset : (![0, 0] : Fin 2 → Nat) = fun _ => 0 := funext fun a => by fin_cases a <;> rfl

/-- The dense layer of the launch contents of the arguments: x against the weights built from the sparse values and their
    row numbers, plus the bias. -/
def whole (c : Dev nD) : (⟨S32768x4096, .f32⟩ : BufTy).Contents (Elt Ideal) :=
  dense (m ((c.tc : Thread nD τ).loc main_arg0))
    (weights (F := Ideal) (m ((c.tc : Thread nD τ).loc main_arg1)) (m ((c.tc : Thread nD τ).loc main_arg3)))
    (m ((c.tc : Thread nD τ).loc main_arg2))

/-! ## Where each window's block sits -/

/-- The printed index maps over the grid: x moves with the result's block row and stays at block column 0; the weights and
    the bias row stay at block row 0 and move with the result's block column; the result's block position stays inside
    64 × 4. -/
theorem block_positions : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 63 ∧ win0_3.index t (1 : Fin 2) ≤ 3 :=
  (by decide +kernel : ∀ t : Fin grid0.N, _)

/-- Every block position of the result is some point's. -/
theorem block_onto : ∀ (q0 : Fin 64) (q1 : Fin 4), ∃ t : Fin cfg0.N, win0_3.index t = ![q0.val, q1.val] :=
  (by decide +kernel : ∀ (q0 : Fin 64) (q1 : Fin 4), ∃ t : Fin grid0.N, win0_3.index t = ![q0.val, q1.val])

/-! ## The input blocks read at an entry -/

/-- Entry (p, k) of point t's block of x is entry (512·i + p, k) of x as launched. -/
theorem xblock_apply (c : Dev nD) (t : Fin cfg0.N) (p : Fin 512) (k : Fin 1024) (P : Fin 32768)
    (hP : P.val = win0_3.index t (0 : Fin 2) * 512 + p.val) :
    iblk m c 0 t (ix2 p k) = (m ((c.tc : Thread nD τ).loc main_arg0) : (⟨S32768x1024, .f32⟩ : BufTy).Contents (Elt Ideal)) (ix2 P k) := by
  obtain ⟨e0, e1, -⟩ := block_positions t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = P.val; omega
  | ⟨1, _⟩ => show win0_0.index t (1 : Fin 2) * 1024 + 1 * k.val = k.val; omega

/-- Entry (k, q) of point t's block of the weights is entry (k, 1024·j + q) of the weights. -/
theorem wblock_apply (c : Dev nD) (t : Fin cfg0.N) (k : Fin 1024) (q : Fin 1024) (Q : Fin 4096)
    (hQ : Q.val = win0_3.index t (1 : Fin 2) * 1024 + q.val) :
    iblk m c 1 t (ix2 k q)
      = weights (F := Ideal) (m ((c.tc : Thread nD τ).loc main_arg1)) (m ((c.tc : Thread nD τ).loc main_arg3)) (ix2 k Q) := by
  obtain ⟨-, -, e2, e3, -⟩ := block_positions t
  show V m c main_v20 (((cfg0.win 1).blk t).view.emb (ix2 k q)) = _
  rw [entry_weights]
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * q.val = Q.val; omega

/-- Entry (0, q) of point t's block of the bias row is the bias of column 1024·j + q. -/
theorem bblock_apply (c : Dev nD) (t : Fin cfg0.N) (q : Fin 1024) (Q : Fin 4096)
    (hQ : Q.val = win0_3.index t (1 : Fin 2) * 1024 + q.val) :
    iblk m c 2 t (ix2 (0 : Fin 1) q)
      = (m ((c.tc : Thread nD τ).loc main_arg2) : (⟨S4096, .f32⟩ : BufTy).Contents (Elt Ideal)) (ix1 Q) := by
  obtain ⟨-, -, -, -, e4, e5, -⟩ := block_positions t
  have e : ((cfg0.win 2).blk t).view.emb (ix2 (0 : Fin 1) q) = ix2 (0 : Fin 1) Q := funext fun a => Fin.ext (by
    match a with
    | ⟨0, _⟩ => show win0_2.index t (0 : Fin 2) * 1 + 1 * 0 = 0; omega
    | ⟨1, _⟩ => show win0_2.index t (1 : Fin 2) * 1024 + 1 * q.val = Q.val; omega)
  show V m c main_v21 (((cfg0.win 2).blk t).view.emb (ix2 (0 : Fin 1) q)) = _
  rw [e]
  exact entry_biasRow_apply m c 0 Q

/-! ## What a point writes back -/

/-- Point t writes back block t of the dense layer of the arguments. -/
theorem flushed_eq (c : Dev nD) (t : Fin cfg0.N) :
    (dats m 0 c).flushed 3 t = ((cfg0.win 3).blk t).view.read (Elt Ideal) (whole m c) := by
  rw [Cert.KernelIdeal.Value.flushed3]
  unfold out0_3
  rw [View.canon_unit_zero zero_offset]
  simp only [View.ld_unit_zero (S := S512x1024) zero_offset, View.ld_unit_zero (S := S1024x1024) zero_offset,
    View.ld_unit_zero (S := S1x1024) zero_offset]
  obtain ⟨-, -, -, -, -, -, b0, b1⟩ := block_positions t
  funext j
  obtain ⟨p, q, rfl⟩ : ∃ (p : Fin 512) (q : Fin 1024), j = ix2 p q := ⟨j 0, j 1, eq_ix2 j⟩
  have hp : p.val < 512 := p.isLt
  have hq : q.val < 1024 := q.isLt
  have e : ((cfg0.win 3).blk t).view.emb (ix2 p q)
      = ix2 (⟨win0_3.index t (0 : Fin 2) * 512 + p.val, by omega⟩ : Fin 32768)
          (⟨win0_3.index t (1 : Fin 2) * 1024 + q.val, by omega⟩ : Fin 4096) := funext fun a => Fin.ext (by
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = win0_3.index t (1 : Fin 2) * 1024 + q.val; omega)
  show k0_pay1 (F := Ideal) (iblk m c 0 t) (iblk m c 1 t) (iblk m c 2 t) (ix2 p q)
      = whole m c (((cfg0.win 3).blk t).view.emb (ix2 p q))
  rw [e]
  unfold whole
  rw [dense_apply]
  refine (payload_apply _ _ _ p q).trans ?_
  exact congrArg₂ (· + ·)
    (Finset.sum_congr rfl fun k _ => congrArg₂ (· * ·) (xblock_apply m c t p k _ rfl) (wblock_apply m c t k q _ rfl))
    (bblock_apply m c t q _ rfl)

/-! ## The blocks tile the result -/

/-- An entry of the result is in point t's block iff each coordinate is in the block's range on its axis. -/
theorem mem_block (t : Fin cfg0.N) (i : S32768x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v22).slice (win0_3.rect t)).set ↔ _
  rw [View.set_slice_whole, Rect.mem_set_unit]
  exact Iff.rfl

/-- Every entry (r, c) of the result is in the block of the point at block position (r / 512, c / 1024). -/
theorem covered (i : S32768x4096.Idx) :
    ∃ t : Fin cfg0.N, (cfg0.win 3).flush t = true ∧ i ∈ ((cfg0.win 3).blk t).view.set := by
  have hi0 : (i 0).val < 32768 := (i 0).isLt
  have hi1 : (i 1).val < 4096 := (i 1).isLt
  obtain ⟨t, ht⟩ := block_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-! ## The result after the run -/

/-- The result array after the run is the dense layer of the arguments. -/
theorem final (c : Dev nD) : (dats m 0 c).arrAt 3 cfg0.N = whole m c :=
  (dats m 0 c).arrAt_eq_of_cover 3 (whole m c) (fun t _ => flushed_eq m c t) covered

/-- Every weakly fair execution of the kernel's program ends with the result at the dense layer of the arguments, the
    arguments unchanged. -/
theorem run : θ_run defs (onTc (τ := τ) (main (F := Ideal))) ⟨m, fun _ => 0, ρ⟩ fun r => ∀ c : Dev nD,
      r.2.mem ((c : Thread nD τ).loc main_v22) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.RefDense.lean ====
/-
  The reference is the dense layer. Its last three operations are the product of x with the weights, the bias laid out as
  a [1, 4096] row and repeated down the 32768 rows, and their sum; read at entry (r, c) that is the sum over k of
  x (r, k) · W (k, c), plus bias c — the function `dense` of x, of the weights stage (the scatter's result, left closed)
  and of the bias.
-/
import proofs.«157395_j58634893525466_1_alg».proof.Proof.Gen.ReferenceIdeal.Read
import proofs.«157395_j58634893525466_1_alg».proof.Proof.Dense

noncomputable section

namespace Cert.ReferenceIdeal.RefValue

open Cert.ReferenceIdeal Cert.ReferenceIdeal.Read Idealize.ShloMosaic Idealize.ShloMosaic.ValueIdx Cert.Dense
open scoped BigOperators

/-- The reference's result, as a stage of its arguments, is `dense` of x, its weights stage and the bias. -/
theorem result_is_dense (x0 : (⟨S32768x1024, .f32⟩ : BufTy).Contents (Elt Ideal))
    (x1 : (⟨S4096x32, .f32⟩ : BufTy).Contents (Elt Ideal)) (x2 : (⟨S4096, .f32⟩ : BufTy).Contents (Elt Ideal))
    (x3 : (⟨S4096x32, .i32⟩ : BufTy).Contents (Elt Ideal)) :
    val_main_v24 (F := Ideal) x0 x1 x2 x3 = dense x0 (val_main_v20 (F := Ideal) x1 x3) x2 := by
  funext i
  -- the product reads x at (row of i, k) and the weights at (k, column of i); the bias is read at the column of i
  have el : ∀ k : Fin 1024, lidx_main_v21 i k = ix2 (i 0) k := fun k => funext fun a => by
    match a with
    | ⟨0, _⟩ => rfl
    | ⟨1, _⟩ => rfl
  have er : ∀ k : Fin 1024, ridx_main_v21 i k = ix2 k (i 1) := fun k => funext fun a => by
    match a with
    | ⟨0, _⟩ => rfl
    | ⟨1, _⟩ => rfl
  have eb : idx_main_v22 (idx_main_v23 i) = ix1 (i 1) := funext fun a => by
    match a with
    | ⟨0, _⟩ => rfl
  rw [val_main_v24_apply, val_main_v21_apply, val_main_v23_apply, val_main_v22_apply]
  simp only [el, er, eb]
  rfl

end Cert.ReferenceIdeal.RefValue

end
-- ==== Proof.SameWeights.lean ====
/-
  The two programs build the weights by the same host operations of the same two arguments — zeros, the row numbers and
  unit numbers wrapped and paired, the flattened sparse values, one scatter — so the reference's weights stage and the
  kernel's weights are one array. The scatter is never opened.
-/
import proofs.«157395_j58634893525466_1_alg».proof.Proof.Gen.ReferenceIdeal.Read
import proofs.«157395_j58634893525466_1_alg».proof.Proof.RegionEntry

noncomputable section

namespace Cert.Proof.Weights

open Idealize.ShloMosaic

/-- The reference's weights stage is the kernel's weights, of the same sparse values and row numbers. -/
theorem same (x1 : (⟨Cert.KernelIdeal.S4096x32, .f32⟩ : BufTy).Contents (Elt Ideal))
    (x3 : (⟨Cert.KernelIdeal.S4096x32, .i32⟩ : BufTy).Contents (Elt Ideal)) :
    Cert.ReferenceIdeal.Read.val_main_v20 (F := Ideal) x1 x3 = Cert.KernelIdeal.Entry.weights (F := Ideal) x1 x3 := by
  unfold Cert.ReferenceIdeal.Read.val_main_v20 Cert.ReferenceIdeal.Read.val_main_v19 Cert.ReferenceIdeal.Read.val_main_v17
    Cert.ReferenceIdeal.Read.val_main_v18 Cert.ReferenceIdeal.Read.val_main_v16 Cert.ReferenceIdeal.Read.val_main_v15
    Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst Cert.ReferenceIdeal.Read.val_main_c Cert.ReferenceIdeal.Read.val_main_c_0
    Cert.ReferenceIdeal.Read.val_main_c_1 Cert.ReferenceIdeal.Read.val_main_c_2 Cert.KernelIdeal.Entry.weights
  rfl

end Cert.Proof.Weights

end
-- ==== Proof.lean ====
/-
  The kernel computes a sparsely connected dense layer: the [1024, 4096] weight matrix W is rebuilt on the host from 4096 × 32
  sparse values and their row numbers (zeros, then each value written at its row and its unit's column), and the
  pallas_call computes x · W + bias over a 64 × 4 grid of [512, 1024] blocks, each block one matrix-unit product into a
  zero accumulator plus the bias row. The reference rebuilds W by the same host operations and computes x @ W + bias.

  On the extended reals both results are, entry (r, c): the sum over k of x (r, k) · W (k, c), plus bias c
  (Proof/Dense.lean). The kernel side: one block's arithmetic at an entry (Proof/BlockPayload.lean), the arrays the region's
  windows find (Proof/RegionEntry.lean), and the blocks tiling the result (Proof/WholeArray.lean). The reference side: its
  last stages read at an entry (Proof/RefDense.lean). The two W are one term (Proof/SameWeights.lean). No law of
  arithmetic beyond 0 + s = s for the accumulator is used, so nothing needs the inputs finite. The ideal pass rewrote
  nothing, so the idealization claim is `True`.
-/
import proofs.«157395_j58634893525466_1_alg».proof.Defs
import proofs.«157395_j58634893525466_1_alg».proof.Proof.Gen.Kernel
import proofs.«157395_j58634893525466_1_alg».proof.Proof.Gen.Kernel.Frame
import proofs.«157395_j58634893525466_1_alg».proof.Proof.Gen.KernelIdeal
import proofs.«157395_j58634893525466_1_alg».proof.Proof.Gen.KernelIdeal.Frame
import proofs.«157395_j58634893525466_1_alg».proof.Proof.Gen.KernelIdeal.Value
import proofs.«157395_j58634893525466_1_alg».proof.Proof.Gen.ReferenceIdeal
import proofs.«157395_j58634893525466_1_alg».proof.Proof.Gen.ReferenceIdeal.Run
import proofs.«157395_j58634893525466_1_alg».proof.Proof.Gen.ReferenceIdeal.Read
import proofs.«157395_j58634893525466_1_alg».proof.Proof.Gen.Pre_finite_inputs
import proofs.«157395_j58634893525466_1_alg».proof.Proof.WholeArray
import proofs.«157395_j58634893525466_1_alg».proof.Proof.RefDense
import proofs.«157395_j58634893525466_1_alg».proof.Proof.SameWeights
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the dense layer of the arguments: the kernel's by its blocks, the reference's by its
    last three operations read at an entry, over the same weights. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_is_dense,
    (hagree c).1, (hagree c).2.1, (hagree c).2.2.1, (hagree c).2.2.2, Cert.Proof.Weights.same]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
